-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x128 .f32) (main_arg5 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x128 .f32) (main_arg1 : FVec F S128x128 .f32) (main_arg2 : FVec F S128x128 .f32) (main_arg3 : FVec F S128x128 .f32) (main_arg4 : FVec F S1x128 .f32) (main_arg5 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8192x128 : Shape := ⟨2, ![8192, 128]⟩
abbrev S128x128 : Shape := ⟨2, ![128, 128]⟩
abbrev S1x128 : Shape := ⟨2, ![1, 128]⟩
abbrev S1 : Shape := ⟨1, ![1]⟩
abbrev S1024x128 : Shape := ⟨2, ![1024, 128]⟩
abbrev S8192 : Shape := ⟨1, ![8192]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1, .f32⟩
  | .hbm, ⟨6, _⟩ => ⟨S128x128, .f32⟩
  | .hbm, ⟨7, _⟩ => ⟨S8192, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1, .f32⟩
  | .local _ .vmem, ⟨12, _⟩ => ⟨S1024, .f32⟩
  | .local _ .vmem, ⟨13, _⟩ => ⟨S1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  inpos_S1_p0 : ∀ a, (![0] : Fin 1 → Nat) a < S1.size a
  shapeCasts_S1x128_S1x128 : S1x128.ShapeCasts S1x128
  broadcasts_S1x128_S1024x128 : S1x128.Broadcasts S1024x128
  reduces_S1024x128_S1024 : S1024x128.Reduces [1] S1024
  inb_S1024_S1024_0 : ∀ a, (![0] : Fin 1 → Nat) a + S1024.size a ≤ S1024.size a
  h_S1024 : 0 < S1024.numel
  dot_S1024x128_S128x128_S1024x128_1_1_0_0_n_n_wf : DotDims.WF S1024x128 S128x128 S1024x128 [1] [1] [0] [0] [] []
  dot_S1024x128_S1024x128_S128x128_0_0_1_1_n_n_wf : DotDims.WF S1024x128 S1024x128 S128x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S8192.size a
  hwx1_5 : ∀ i : grid1.Coords, EltTy.bits .f32 = 32 ∨ (Rect.block (s := S8192) S1024.size (cc1_transform_5 i) (hinb1_5 i)).WholeWords (EltTy.packing .f32)

variable [Facts₀]

def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S1x128 : Shape := ⟨2, ![1, 128]⟩
abbrev S1 : Shape := ⟨1, ![1]⟩
abbrev S128x8192 : Shape := ⟨2, ![128, 8192]⟩
abbrev S8192x8192 : Shape := ⟨2, ![8192, 8192]⟩
abbrev S128x1 : Shape := ⟨2, ![128, 1]⟩
abbrev S8192x1 : Shape := ⟨2, ![8192, 1]⟩
abbrev S1x1 : Shape := ⟨2, ![1, 1]⟩
abbrev S8192 : Shape := ⟨1, ![8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1, .f32⟩
  | .hbm, ⟨6, _⟩ => ⟨S128x128, .f32⟩
  | .hbm, ⟨7, _⟩ => ⟨S8192x128, .f32⟩
  | .hbm, ⟨8, _⟩ => ⟨S128x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S128x128, .f32⟩
  | .hbm, ⟨13, _⟩ => ⟨S8192x128, .f32⟩
  | .hbm, ⟨14, _⟩ => ⟨S8192x128, .f32⟩
  | .hbm, ⟨15, _⟩ => ⟨S128x1, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  transposes_S8192x128_S128x8192_1_0 : S8192x128.Transposes [1, 0] S128x8192
  transposes_S1x128_S128x1_1_0 : S1x128.Transposes [1, 0] S128x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x1_S8192x1_1_0_0_1_n_n_wf : DotDims.WF S8192x128 S128x1 S8192x1 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.K.Region0Runs.lean ====
/-
  Region 0 of @main: the accumulation of KᵀV over the eight row tiles, one grid point per tile.
  The kernel body resets a scratch accumulator at the first point, adds the tile's product K_tileᵀ·V_tile to it at
  every point, and copies it into the output window's buffer at the last point. This module fixes what the three
  kinds of point share — the two branch conditions in closed form over the grid, where the output window is idle,
  the memrefs the body is called with — and runs the body once per kind of point: first (reset and add), middle
  (add), last (add and copy out). Each run is stated for any whole staging memrefs and finds, as its witness, the
  pieces it leaves in the scratch and in the output buffer.
-/
import proofs.«145879_j15444702396584_1_alg».proof.Proof.Gen.Kernel.Launch
import proofs.«145879_j15444702396584_1_alg».proof.Proof.Gen.Kernel.Skeleton
import proofs.«145879_j15444702396584_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid -/

/-- The condition of the reset branch: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the copy-out branch: the grid coordinate is 7. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first point the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the middle points too. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last point it is live: the body stores the accumulator into it. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S128x128 .f32 := (Memref.whole cc0_stg3_0 : Memref sig .tc .vmem S128x128 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S128x128 .f32 := Memref.whole cc0_scratch0
abbrev VS0_0 : View sig .tc .vmem S128x128 .f32 := scM0_0.view

/-- The core's scoped buffers that region 0 neither stages nor names: the other region's staging buffers, each whole
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant as the launch states it, with the scratch accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole, rest0]; rfl

/-! ## The body at the three kinds of point -/

set_option maxHeartbeats 1000000 in
/-- THE FIRST POINT (reset taken, copy-out not taken). On whole memrefs — the three inputs at their contents, the
    output's buffer at contents handed back untouched, the scratch at anything — the body runs to the continuation
    with the inputs as they were and the scratch with the pieces `LS0` written; the pieces are the witness the run finds. -/
noncomputable def kernelRun0_A (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) :
    Σ' (L3 : List (View.Piece (Elt F) S128x128 .f32)), { LS0 : List (View.Piece (Elt F) S128x128 .f32) //
      ∀ (xi3 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨[], ?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A MIDDLE POINT (neither branch taken): as at the first point, the scratch now entered at the contents `xs0` the
    point before left. -/
noncomputable def kernelRun0_B (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) :
    Σ' (L3 : List (View.Piece (Elt F) S128x128 .f32)), { LS0 : List (View.Piece (Elt F) S128x128 .f32) //
      ∀ (xi3 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨[], ?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- THE LAST POINT (copy-out taken): the output's buffer, entered at anything, is left with the pieces `L3` written. -/
noncomputable def kernelRun0_C (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) :
    Σ' (L3 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Region0.lean ====
/-
  Region 0 of @main, continued: what the scratch accumulator and the output window's buffer hold after each grid
  point (by recursion on the point: the first point's run from anything, every later point's run from what the point
  before left in the scratch), the region's invariant carrying the accumulator from point to point, the pipeline's
  proof data at the contents `V` the region is entered with, and the body obligation at every point.
-/
import proofs.«145879_j15444702396584_1_alg».proof.Proof.Gen.Kernel.Launch
import proofs.«145879_j15444702396584_1_alg».proof.Proof.Gen.Kernel.Skeleton
import proofs.«145879_j15444702396584_1_alg».proof.Proof.Gen.Kernel.Points
import proofs.«145879_j15444702396584_1_alg».proof.Proof.K.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves -/

/-- The first point stores nothing into the output window: a placeholder nothing consults. -/
def out0_A_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) : Vec F S128x128 .f32 :=
  VO0_3.read (Elt F) (VO0_3.writes (Elt F) VO0_3.junk (kernelRun0_A c i arg1 harg1 arg2 harg2 arg3 harg3 arg4 harg4 arg5 harg5 hc0 hc1 x0 x1 x2).1)

/-- The first point's pieces for the scratch cover it. -/
theorem scover0_A_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) (y : S128x128.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S128x128.size (by sl_kernel_rfl) y

/-- What the first point leaves in the scratch: its pieces read back. -/
def sout0_A_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) : Vec F S128x128 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output window either. -/
def out0_B_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) : Vec F S128x128 .f32 :=
  VO0_3.read (Elt F) (VO0_3.writes (Elt F) VO0_3.junk (kernelRun0_B c i arg1 harg1 arg2 harg2 arg3 harg3 arg4 harg4 arg5 harg5 hc0 hc1 x0 x1 x2 xs0).1)

theorem scover0_B_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) (y : S128x128.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S128x128.size (by sl_kernel_rfl) y

def sout0_B_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) : Vec F S128x128 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's pieces for the output window cover its block. -/
theorem cover0_C_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) (y : S128x128.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x128.size (by sl_kernel_rfl) y

/-- What the last point leaves in the output window's buffer. -/
def out0_C_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : Vec F S128x128 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) (y : S128x128.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x128.size (by sl_kernel_rfl) y

def sout0_C_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : Vec F S128x128 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window's buffer and the scratch hold after each point -/

/-- THE ACCUMULATION: after the body at position `n`, the pair (output window's buffer, scratch accumulator): the kind
    of point the closed forms select at `n`, run at the point's memrefs and input blocks, the scratch entered at what
    position `n - 1` left in it. -/
def outsAt0 (c : Dev nD) : (n : ℕ) → n < cfg0.N → Vec F S128x128 .f32 × Vec F S128x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at the first kind of point. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle point, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands the region (every scoped buffer at anything);
    afterwards the scratch accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

set_option maxHeartbeats 4800000 in
/-- The body at any point: the inputs' memrefs hold their blocks; the closed forms say which kind of point it is; the
    invariant hands the body the scratch at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 8 := lt_of_lt_of_eq t.isLt (show cfg0.N = 8 from N_0)
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      have hz : t.val = 0 := by omega
      rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, Hrest⟩, Hg⟩
  isplitl [HS0 Hrest]
  · isplitl [HS0]
    · iexists _; iexact HS0
    iexact Hrest
  iexact Hg

end Cert.Kernel.Hand

end
-- ==== Proof.K.Region1.lean ====
/-
  Region 1 of the program (the second pallas_call, the head kernel): its half of the frame, at a parameter `V` —
  the TensorCore's buffer contents when the region is entered.

  The region is a pipeline over 8 grid points with six windows. Window 0 (the 8192×128 input, blocks of 1024 rows)
  is fetched at every point; windows 1–4 (the 128×128 query weights, the 128×128 matrix the first region produced,
  the 1×128 head row and the 1-element head offset) are whole-array blocks fetched once; window 5 is the output, 8192
  entries in blocks of 1024, written back at every point. The body reads the five input buffers whole, computes one
  1024-vector from them (the skeleton's payload) and stores it over the whole output buffer; so what it leaves in
  the output buffer is a closed function `out1_5` of the five input blocks at the point, and every input buffer is
  left as found. This file states that as the pipeline's proof data `dat1` and proves the body obligation.
-/
import proofs.«145879_j15444702396584_1_alg».proof.Proof.Gen.Kernel.Launch
import proofs.«145879_j15444702396584_1_alg».proof.Proof.Gen.Kernel.Skeleton
import proofs.«145879_j15444702396584_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`): where the window is not
    fetched its block index has not moved, so the buffer still holds the same block. The windows are inputs, never
    idle, and their blocks are not clipped. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S1 := Rect.unit (s := S1) ![0] S1.size inb_S1_S1_0
abbrev r1_4 : Rect S1024 := Rect.unit (s := S1024) ![0] S1024.size inb_S1024_S1024_0

/-! ## What the body leaves in the output window's buffer -/

/-- The output's staging buffer after the body, from the five input blocks: its one store (the whole buffer) of the
    payload of the five loads. -/
def out1_5 (x0 : Vec F S1024x128 .f32) (x1 x2 : Vec F S128x128 .f32) (x3 : Vec F S1x128 .f32) (x4 : Vec F S1 .f32) : Vec F S1024 .f32 :=
  View.canon [⟨r1_4, k1_pay1 (View.ld x0 r1_0) (View.ld x1 r1_1) (View.ld x2 r1_1) (View.ld x3 r1_2) (View.ld x4 r1_3)⟩]

/-- The store covers the buffer. -/
theorem cover1_5 (p0 : Vec F S1024 .f32) (y : S1024.Idx) :
    ∃ pc ∈ ([⟨r1_4, p0⟩] : List (View.Piece (Elt F) S1024 .f32)), y ∈ pc.1.set :=
  View.cover_of_tiled [⟨r1_4, p0⟩] S1024.size (by rfl) y

/-! ## The body's triple -/

set_option maxHeartbeats 1000000 in
/-- The kernel body on whole staging memrefs, the five inputs' at read contents `x0 … x4` and the output's at
    anything, runs to the continuation holding the inputs' as they were and the output's at `out1_5` of the inputs'.
    The body also loads the output buffer before storing into it; the loaded value is not used. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1 .f32) (harg5 : arg5.IsWhole) (arg6 : Memref sig .tc .vmem S1024 .f32) (harg6 : arg6.IsWhole)
    (x0 : Vec F S1024x128 .f32) (x1 x2 : Vec F S128x128 .f32) (x3 : Vec F S1x128 .f32) (x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__z_kernel i arg1 harg1 arg2 harg2 arg3 harg3 arg4 harg4 arg5 harg5 arg6 harg6) K := by
  simp only [cc1__z_kernel_eq_skeleton]; unfold cc1__z_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body at
    point `t` each input's buffer at its block and the output's at `out1_5` of the five input blocks; the invariant
    carries the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: two kernel regions, one after the other, with no host operation between or around them.
  The contents of the TensorCore's unscoped buffers are followed from the launch memory through both regions — a
  region leaves each of its windows' arrays at what its write-backs fold to and every other buffer as it found it —,
  each region is entered from "every unscoped buffer whole at the current contents, the generator register at some
  state, nothing owed" and left at the same with the next contents, and at the end every buffer is read back: the
  six argument arrays hold their launch contents, and the result array holds what region 1's write-backs fold to.
-/
import proofs.«145879_j15444702396584_1_alg».proof.Proof.Gen.Kernel.Launch
import proofs.«145879_j15444702396584_1_alg».proof.Proof.Gen.Kernel.Skeleton
import proofs.«145879_j15444702396584_1_alg».proof.Proof.Gen.Kernel.Points
import proofs.«145879_j15444702396584_1_alg».proof.Proof.K.Region0
import proofs.«145879_j15444702396584_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry contents. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 1's entry contents. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments keep their launch contents: a region reads an argument through an input window or bypasses it -/

theorem W1_main_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  ((W2_arr m ρ c 1).trans (((dat1 (V1 m ρ) c).arrAt_in 1 rfl _).trans (A_eq1 (V1 m ρ) c 1))).trans (W1_main_arg1 m ρ c)
theorem W1_main_arg2 (c : Dev nD) : W1 m ρ c (Proc.devRef .tc main_arg2) = m ((c : Thread nD τ).loc main_arg2) :=
  ((W1_arr m ρ c 1).trans (((dat0 (V0 m ρ) c).arrAt_in 1 rfl _).trans (A_eq0 (V0 m ρ) c 1))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W1_main_arg3 (c : Dev nD) : W1 m ρ c (Proc.devRef .tc main_arg3) = m ((c : Thread nD τ).loc main_arg3) :=
  ((W1_arr m ρ c 2).trans (((dat0 (V0 m ρ) c).arrAt_in 2 rfl _).trans (A_eq0 (V0 m ρ) c 2))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  ((W2_arr m ρ c 3).trans (((dat1 (V1 m ρ) c).arrAt_in 3 rfl _).trans (A_eq1 (V1 m ρ) c 3))).trans (W1_main_arg4 m ρ c)
theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  ((W2_arr m ρ c 4).trans (((dat1 (V1 m ρ) c).arrAt_in 4 rfl _).trans (A_eq1 (V1 m ρ) c 4))).trans (W1_main_arg5 m ρ c)

/-- The intermediate array KᵀV when region 1 is entered is what region 0's one write-back left. -/
theorem W1_main_v0 (c : Dev nD) : W1 m ρ c (Proc.devRef .tc main_v0) = (dat0 (V0 m ρ) c).arrAt 3 cfg0.N := W1_arr m ρ c 3
/-- The result array at the end is what region 1's write-backs fold to. -/
theorem W2_main_v1 (c : Dev nD) : W2 m ρ c (Proc.devRef .tc main_v1) = (dat1 (V1 m ρ) c).arrAt 5 cfg1.N := W2_arr m ρ c 5

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0: entered from every unscoped buffer at the launch contents, left at `W1`. Its arrays are split out of the
    unscoped buffers and put back at the exit contents; the generator register goes into the invariant and comes back;
    the accumulator's contents are named inside the region only. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 0).pre c (fun _ => fullShare) (adm 0).1 ∗ Pipeline.scopedRest spec0 c) ⊢ Pipeline.ΦA spec0 c from ?_).trans (hin0 (V0 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
/-- @main is the run of the two regions in order. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the result array at what region 1's write-backs fold to and the six
    argument arrays as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

/-- THE FRAME, at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.KI.Region0Runs.lean ====
/-
  Region 0 of @main: the accumulation of KᵀV over the eight row tiles, one grid point per tile.
  The kernel body resets a scratch accumulator at the first point, adds the tile's product K_tileᵀ·V_tile to it at
  every point, and copies it into the output window's buffer at the last point. This module fixes what the three
  kinds of point share — the two branch conditions in closed form over the grid, where the output window is idle,
  the memrefs the body is called with — and runs the body once per kind of point: first (reset and add), middle
  (add), last (add and copy out). Each run is stated for any whole staging memrefs and finds, as its witness, the
  pieces it leaves in the scratch and in the output buffer.
-/
import proofs.«145879_j15444702396584_1_alg».proof.Proof.Gen.KernelIdeal.Launch
import proofs.«145879_j15444702396584_1_alg».proof.Proof.Gen.KernelIdeal.Skeleton
import proofs.«145879_j15444702396584_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid -/

/-- The condition of the reset branch: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the copy-out branch: the grid coordinate is 7. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first point the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the middle points too. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last point it is live: the body stores the accumulator into it. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S128x128 .f32 := (Memref.whole cc0_stg3_0 : Memref sig .tc .vmem S128x128 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S128x128 .f32 := Memref.whole cc0_scratch0
abbrev VS0_0 : View sig .tc .vmem S128x128 .f32 := scM0_0.view

/-- The core's scoped buffers that region 0 neither stages nor names: the other region's staging buffers, each whole
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant as the launch states it, with the scratch accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole, rest0]; rfl

/-! ## The body at the three kinds of point -/

set_option maxHeartbeats 1000000 in
/-- THE FIRST POINT (reset taken, copy-out not taken). On whole memrefs — the three inputs at their contents, the
    output's buffer at contents handed back untouched, the scratch at anything — the body runs to the continuation
    with the inputs as they were and the scratch with the pieces `LS0` written; the pieces are the witness the run finds. -/
noncomputable def kernelRun0_A (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) :
    Σ' (L3 : List (View.Piece (Elt F) S128x128 .f32)), { LS0 : List (View.Piece (Elt F) S128x128 .f32) //
      ∀ (xi3 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨[], ?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A MIDDLE POINT (neither branch taken): as at the first point, the scratch now entered at the contents `xs0` the
    point before left. -/
noncomputable def kernelRun0_B (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) :
    Σ' (L3 : List (View.Piece (Elt F) S128x128 .f32)), { LS0 : List (View.Piece (Elt F) S128x128 .f32) //
      ∀ (xi3 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨[], ?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- THE LAST POINT (copy-out taken): the output's buffer, entered at anything, is left with the pieces `L3` written. -/
noncomputable def kernelRun0_C (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) :
    Σ' (L3 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg1 harg1 arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Region0.lean ====
/-
  Region 0 of @main, continued: what the scratch accumulator and the output window's buffer hold after each grid
  point (by recursion on the point: the first point's run from anything, every later point's run from what the point
  before left in the scratch), the region's invariant carrying the accumulator from point to point, the pipeline's
  proof data at the contents `V` the region is entered with, and the body obligation at every point.
-/
import proofs.«145879_j15444702396584_1_alg».proof.Proof.Gen.KernelIdeal.Launch
import proofs.«145879_j15444702396584_1_alg».proof.Proof.Gen.KernelIdeal.Skeleton
import proofs.«145879_j15444702396584_1_alg».proof.Proof.Gen.KernelIdeal.Points
import proofs.«145879_j15444702396584_1_alg».proof.Proof.KI.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves -/

/-- The first point stores nothing into the output window: a placeholder nothing consults. -/
def out0_A_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) : Vec F S128x128 .f32 :=
  VO0_3.read (Elt F) (VO0_3.writes (Elt F) VO0_3.junk (kernelRun0_A c i arg1 harg1 arg2 harg2 arg3 harg3 arg4 harg4 arg5 harg5 hc0 hc1 x0 x1 x2).1)

/-- The first point's pieces for the scratch cover it. -/
theorem scover0_A_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) (y : S128x128.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S128x128.size (by sl_kernel_rfl) y

/-- What the first point leaves in the scratch: its pieces read back. -/
def sout0_A_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) : Vec F S128x128 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output window either. -/
def out0_B_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) : Vec F S128x128 .f32 :=
  VO0_3.read (Elt F) (VO0_3.writes (Elt F) VO0_3.junk (kernelRun0_B c i arg1 harg1 arg2 harg2 arg3 harg3 arg4 harg4 arg5 harg5 hc0 hc1 x0 x1 x2 xs0).1)

theorem scover0_B_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) (y : S128x128.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S128x128.size (by sl_kernel_rfl) y

def sout0_B_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) : Vec F S128x128 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's pieces for the output window cover its block. -/
theorem cover0_C_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) (y : S128x128.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x128.size (by sl_kernel_rfl) y

/-- What the last point leaves in the output window's buffer. -/
def out0_C_3 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : Vec F S128x128 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) (y : S128x128.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x128.size (by sl_kernel_rfl) y

def sout0_C_0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : Vec F S128x128 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window's buffer and the scratch hold after each point -/

/-- THE ACCUMULATION: after the body at position `n`, the pair (output window's buffer, scratch accumulator): the kind
    of point the closed forms select at `n`, run at the point's memrefs and input blocks, the scratch entered at what
    position `n - 1` left in it. -/
def outsAt0 (c : Dev nD) : (n : ℕ) → n < cfg0.N → Vec F S128x128 .f32 × Vec F S128x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at the first kind of point. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle point, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands the region (every scoped buffer at anything);
    afterwards the scratch accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

set_option maxHeartbeats 4800000 in
/-- The body at any point: the inputs' memrefs hold their blocks; the closed forms say which kind of point it is; the
    invariant hands the body the scratch at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 8 := lt_of_lt_of_eq t.isLt (show cfg0.N = 8 from N_0)
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      have hz : t.val = 0 := by omega
      rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Region1.lean ====
/-
  Region 1 of the program (the second pallas_call, the head kernel): its half of the frame, at a parameter `V` —
  the TensorCore's buffer contents when the region is entered.

  The region is a pipeline over 8 grid points with six windows. Window 0 (the 8192×128 input, blocks of 1024 rows)
  is fetched at every point; windows 1–4 (the 128×128 query weights, the 128×128 matrix the first region produced,
  the 1×128 head row and the 1-element head offset) are whole-array blocks fetched once; window 5 is the output, 8192
  entries in blocks of 1024, written back at every point. The body reads the five input buffers whole, computes one
  1024-vector from them (the skeleton's payload) and stores it over the whole output buffer; so what it leaves in
  the output buffer is a closed function `out1_5` of the five input blocks at the point, and every input buffer is
  left as found. This file states that as the pipeline's proof data `dat1` and proves the body obligation.
-/
import proofs.«145879_j15444702396584_1_alg».proof.Proof.Gen.KernelIdeal.Launch
import proofs.«145879_j15444702396584_1_alg».proof.Proof.Gen.KernelIdeal.Skeleton
import proofs.«145879_j15444702396584_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`): where the window is not
    fetched its block index has not moved, so the buffer still holds the same block. The windows are inputs, never
    idle, and their blocks are not clipped. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S1 := Rect.unit (s := S1) ![0] S1.size inb_S1_S1_0
abbrev r1_4 : Rect S1024 := Rect.unit (s := S1024) ![0] S1024.size inb_S1024_S1024_0

/-! ## What the body leaves in the output window's buffer -/

/-- The output's staging buffer after the body, from the five input blocks: its one store (the whole buffer) of the
    payload of the five loads. -/
def out1_5 (x0 : Vec F S1024x128 .f32) (x1 x2 : Vec F S128x128 .f32) (x3 : Vec F S1x128 .f32) (x4 : Vec F S1 .f32) : Vec F S1024 .f32 :=
  View.canon [⟨r1_4, k1_pay1 (View.ld x0 r1_0) (View.ld x1 r1_1) (View.ld x2 r1_1) (View.ld x3 r1_2) (View.ld x4 r1_3)⟩]

/-- The store covers the buffer. -/
theorem cover1_5 (p0 : Vec F S1024 .f32) (y : S1024.Idx) :
    ∃ pc ∈ ([⟨r1_4, p0⟩] : List (View.Piece (Elt F) S1024 .f32)), y ∈ pc.1.set :=
  View.cover_of_tiled [⟨r1_4, p0⟩] S1024.size (by rfl) y

/-! ## The body's triple -/

set_option maxHeartbeats 1000000 in
/-- The kernel body on whole staging memrefs, the five inputs' at read contents `x0 … x4` and the output's at
    anything, runs to the continuation holding the inputs' as they were and the output's at `out1_5` of the inputs'.
    The body also loads the output buffer before storing into it; the loaded value is not used. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1 .f32) (harg5 : arg5.IsWhole) (arg6 : Memref sig .tc .vmem S1024 .f32) (harg6 : arg6.IsWhole)
    (x0 : Vec F S1024x128 .f32) (x1 x2 : Vec F S128x128 .f32) (x3 : Vec F S1x128 .f32) (x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__z_kernel i arg1 harg1 arg2 harg2 arg3 harg3 arg4 harg4 arg5 harg5 arg6 harg6) K := by
  simp only [cc1__z_kernel_eq_skeleton]; unfold cc1__z_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body at
    point `t` each input's buffer at its block and the output's at `out1_5` of the five input blocks; the invariant
    carries the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: two kernel regions, one after the other, with no host operation between or around them.
  The contents of the TensorCore's unscoped buffers are followed from the launch memory through both regions — a
  region leaves each of its windows' arrays at what its write-backs fold to and every other buffer as it found it —,
  each region is entered from "every unscoped buffer whole at the current contents, the generator register at some
  state, nothing owed" and left at the same with the next contents, and at the end every buffer is read back: the
  six argument arrays hold their launch contents, and the result array holds what region 1's write-backs fold to.
-/
import proofs.«145879_j15444702396584_1_alg».proof.Proof.Gen.KernelIdeal.Launch
import proofs.«145879_j15444702396584_1_alg».proof.Proof.Gen.KernelIdeal.Skeleton
import proofs.«145879_j15444702396584_1_alg».proof.Proof.Gen.KernelIdeal.Points
import proofs.«145879_j15444702396584_1_alg».proof.Proof.KI.Region0
import proofs.«145879_j15444702396584_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry contents. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 1's entry contents. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments keep their launch contents: a region reads an argument through an input window or bypasses it -/

theorem W1_main_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  ((W2_arr m ρ c 1).trans (((dat1 (V1 m ρ) c).arrAt_in 1 rfl _).trans (A_eq1 (V1 m ρ) c 1))).trans (W1_main_arg1 m ρ c)
theorem W1_main_arg2 (c : Dev nD) : W1 m ρ c (Proc.devRef .tc main_arg2) = m ((c : Thread nD τ).loc main_arg2) :=
  ((W1_arr m ρ c 1).trans (((dat0 (V0 m ρ) c).arrAt_in 1 rfl _).trans (A_eq0 (V0 m ρ) c 1))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W1_main_arg3 (c : Dev nD) : W1 m ρ c (Proc.devRef .tc main_arg3) = m ((c : Thread nD τ).loc main_arg3) :=
  ((W1_arr m ρ c 2).trans (((dat0 (V0 m ρ) c).arrAt_in 2 rfl _).trans (A_eq0 (V0 m ρ) c 2))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  ((W2_arr m ρ c 3).trans (((dat1 (V1 m ρ) c).arrAt_in 3 rfl _).trans (A_eq1 (V1 m ρ) c 3))).trans (W1_main_arg4 m ρ c)
theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  ((W2_arr m ρ c 4).trans (((dat1 (V1 m ρ) c).arrAt_in 4 rfl _).trans (A_eq1 (V1 m ρ) c 4))).trans (W1_main_arg5 m ρ c)

/-- The intermediate array KᵀV when region 1 is entered is what region 0's one write-back left. -/
theorem W1_main_v0 (c : Dev nD) : W1 m ρ c (Proc.devRef .tc main_v0) = (dat0 (V0 m ρ) c).arrAt 3 cfg0.N := W1_arr m ρ c 3
/-- The result array at the end is what region 1's write-backs fold to. -/
theorem W2_main_v1 (c : Dev nD) : W2 m ρ c (Proc.devRef .tc main_v1) = (dat1 (V1 m ρ) c).arrAt 5 cfg1.N := W2_arr m ρ c 5

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0: entered from every unscoped buffer at the launch contents, left at `W1`. Its arrays are split out of the
    unscoped buffers and put back at the exit contents; the generator register goes into the invariant and comes back;
    the accumulator's contents are named inside the region only. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 0).pre c (fun _ => fullShare) (adm 0).1 ∗ Pipeline.scopedRest spec0 c) ⊢ Pipeline.ΦA spec0 c from ?_).trans (hin0 (V0 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
/-- @main is the run of the two regions in order. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the result array at what region 1's write-backs fold to and the six
    argument arrays as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

/-- THE FRAME, at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.Spec.lean ====
/-
  The mathematics of the linear-attention head, stated once over the extended reals and over literal shapes,
  with no program in sight.

  With Q = X·Wqᵀ, K = X·Wkᵀ, V = X·Wvᵀ (rows n < 8192, features f, e < 128, the contraction over d < 128), the
  prediction of row n is  Σ_e Z(n,e)·w(e) + b  where Z is either
    * (Q·Kᵀ)·V : Z(n,e) = Σ_r (Σ_f Q(n,f)·K(r,f))·V(r,e)        — the quadratic arrangement (`refOut`), or
    * Q·(Kᵀ·V) : Z(n,e) = Σ_f Q(n,f)·KV(f,e),  KV(f,e) = Σ_t Σ_r K(row t r, f)·V(row t r, e)
      with the 8192 rows cut into 8 tiles of 1024                   — the linear arrangement (`kernelOut`).
  The two agree on real inputs by associativity and distributivity of finite sums.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 128]⟩
abbrev SW : Shape := ⟨2, ![128, 128]⟩
abbrev SH : Shape := ⟨2, ![1, 128]⟩
abbrev SB : Shape := ⟨1, ![1]⟩
abbrev SO : Shape := ⟨1, ![8192]⟩
abbrev ST : Shape := ⟨2, ![1024, 128]⟩
abbrev SOT : Shape := ⟨1, ![1024]⟩

/-- Row `r` of tile `t` of the 8192 rows cut into 8 tiles of 1024. -/
def row (t : Fin 8) (r : Fin 1024) : Fin 8192 := ⟨t.val * 1024 + r.val, by omega⟩

/-- A projection X·Wᵀ at (n, f): the sum over the input features d of X(n,d)·W(f,d). -/
def proj (X : SX.Idx → EReal) (W : SW.Idx → EReal) (n : Fin 8192) (f : Fin 128) : EReal :=
  ∑ d : Fin 128, X (ix2 n d) * W (ix2 f d)

/-- One tile's contribution to KᵀV at (f, e): the sum over the tile's rows of K(row,f)·V(row,e). -/
def kvTile (X : SX.Idx → EReal) (Wk Wv : SW.Idx → EReal) (t : Fin 8) (f e : Fin 128) : EReal :=
  ∑ r : Fin 1024, proj X Wk (row t r) f * proj X Wv (row t r) e

/-- KᵀV at (f, e), accumulated tile by tile. -/
def kv (X : SX.Idx → EReal) (Wk Wv : SW.Idx → EReal) (f e : Fin 128) : EReal :=
  ∑ t : Fin 8, kvTile X Wk Wv t f e

/-- KᵀV as an array. -/
def kvArr (X : SX.Idx → EReal) (Wk Wv : SW.Idx → EReal) : SW.Idx → EReal := fun j => kv X Wk Wv (j 0) (j 1)

/-- The head applied to Q·M for a given 128×128 matrix M: Σ_e (Σ_f Q(n,f)·M(f,e))·w(0,e) + b(0). -/
def headAt (X : SX.Idx → EReal) (Wq M : SW.Idx → EReal) (hw : SH.Idx → EReal) (hb : SB.Idx → EReal) (n : Fin 8192) : EReal :=
  (∑ e : Fin 128, (∑ f : Fin 128, proj X Wq n f * M (ix2 f e)) * hw (ix2 0 e)) + hb (ix1 0)

/-- The linear arrangement Q·(KᵀV), as an array of 8192 predictions. -/
def kernelOut (X : SX.Idx → EReal) (Wq Wk Wv : SW.Idx → EReal) (hw : SH.Idx → EReal) (hb : SB.Idx → EReal) : SO.Idx → EReal :=
  fun i => headAt X Wq (kvArr X Wk Wv) hw hb (i 0)

/-- The quadratic arrangement (Q·Kᵀ)·V at row n. -/
def refAt (X : SX.Idx → EReal) (Wq Wk Wv : SW.Idx → EReal) (hw : SH.Idx → EReal) (hb : SB.Idx → EReal) (n : Fin 8192) : EReal :=
  (∑ e : Fin 128, (∑ r : Fin 8192, (∑ f : Fin 128, proj X Wq n f * proj X Wk r f) * proj X Wv r e) * hw (ix2 0 e)) + hb (ix1 0)

/-- The quadratic arrangement as an array of 8192 predictions. -/
def refOut (X : SX.Idx → EReal) (Wq Wk Wv : SW.Idx → EReal) (hw : SH.Idx → EReal) (hb : SB.Idx → EReal) : SO.Idx → EReal :=
  fun i => refAt X Wq Wk Wv hw hb (i 0)

end Cert.Spec

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibTransposedLhsDot.lean ====
/-
  A matrix product with BOTH operands contracted on their leading axis, read at an index, over the extended reals.

  For the dimension numbers of a `K×M` by `K×N` product (contract the left operand's axis 0 with the right operand's
  axis 0, no batch axis) — the product AᵀB of two blocks of rows — the contraction index is one coordinate `k < K`, the
  left operand is read at `(k, p)` and the right one at `(k, q)`. So a kernel's matmul into a zero accumulator is, at
  `(p, q)`, the sum over `k : Fin K` of `lhs (k, p) * rhs (k, q)`.
-/
import Idealize.ShloMosaic.PureOps.Ideal
import Idealize.ShloMosaic.PureOps.Ideal.Laws
import Idealize.ShloMosaic.Lib.ValueIdx

noncomputable section

namespace Idealize.ShloMosaic.TransposedLhsDot

open Idealize.ShloMosaic Idealize.ShloMosaic.ValueIdx

/-- The dimension numbers `<[0], [0], [1], [1]>`: `K×M` by `K×N`, both contracted on the leading axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's index at output `(p, q)` and contraction position `k` is `(k, p)`. -/
theorem lhsIdx_tl (K M N : ℕ) (p : Fin M) (q : Fin N) (k : Fin K) :
    (dims K M N).lhsIdx (ix2 p q) ((contrEquiv1 (dims K M N) K rfl rfl).symm k) = ix2 k p := by
  funext a
  apply Fin.ext
  match a with
  | ⟨0, _⟩ => rfl
  | ⟨1, _⟩ => rfl

/-- The right operand's index at output `(p, q)` and contraction position `k` is `(k, q)`. -/
theorem rhsIdx_tl (K M N : ℕ) (p : Fin M) (q : Fin N) (k : Fin K) :
    (dims K M N).rhsIdx (ix2 p q) ((contrEquiv1 (dims K M N) K rfl rfl).symm k) = ix2 k q := by
  funext a
  apply Fin.ext
  match a with
  | ⟨0, _⟩ => rfl
  | ⟨1, _⟩ => rfl

/-- The contraction sum, re-indexed by the one contracted coordinate. -/
theorem sum_tl (K M N : ℕ) (a : (⟨2, ![K, M]⟩ : Shape).Idx → EReal) (w : (⟨2, ![K, N]⟩ : Shape).Idx → EReal)
    (p : Fin M) (q : Fin N) :
    ∑ k : (dims K M N).contr.Idx,
        a ((dims K M N).lhsIdx (ix2 p q) k) * w ((dims K M N).rhsIdx (ix2 p q) k)
      = ∑ k : Fin K, a (ix2 k p) * w (ix2 k q) := by
  rw [← Equiv.sum_comp (contrEquiv1 (dims K M N) K rfl rfl).symm]
  exact Finset.sum_congr rfl fun k _ => by rw [lhsIdx_tl, rhsIdx_tl]

/-- A kernel's matmul into the zero accumulator, both operands contracted on the leading axis, read at `(p, q)`. -/
theorem matmul_zero_apply {K M N : ℕ} {φ₁ φ₂ : FTy} (d : DotDims ⟨2, ![K, M]⟩ ⟨2, ![K, N]⟩ ⟨2, ![M, N]⟩)
    (hd : d = dims K M N) (prec : Option ContractPrecision)
    (lhs : FVec Ideal ⟨2, ![K, M]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 k p) * rhs (ix2 k q) := by
  subst hd
  rw [Ideal.matmul_constant_zero_apply]
  exact sum_tl K M N lhs rhs p q

end Idealize.ShloMosaic.TransposedLhsDot

end
-- ==== Proof.KI.Value0.lean ====
/-
  The value of region 0 over the extended reals: what the intermediate array holds when the region ends.

  At a grid point the body adds to the accumulator the product K_tileᵀ·V_tile of the point's tile of rows, where
  K_tile = X_tile·Wkᵀ and V_tile = X_tile·Wvᵀ (changes of float format are the identity here and a product into the zero
  accumulator is a plain sum). The accumulator starts from the zero array at the first point, so after point n it
  holds the sum of the tiles 0 … n, entry by entry; the last point copies it into the output window's buffer, and
  that point's write-back — the only one, of the whole 128×128 array — leaves KᵀV in the intermediate array.
-/
import proofs.«145879_j15444702396584_1_alg».proof.Proof.KI.Region0
import proofs.«145879_j15444702396584_1_alg».proof.Proof.Spec
import proofs.«145879_j15444702396584_1_alg».proof.Proof.LibTransposedDot
import proofs.«145879_j15444702396584_1_alg».proof.Proof.LibTransposedLhsDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section AnyF
variable {F : FTy → Type} [FloatOps F]

theorem hzero2 : (![0, 0] : Fin 2 → ℕ) = fun _ => 0 := by funext a; match a with | ⟨0, _⟩ => rfl | ⟨1, _⟩ => rfl

/-- What the first point leaves in the accumulator: the tile's product added to the zero array. -/
theorem sout0_A_0_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S1024x128 .f32) (x1 : Vec F S128x128 .f32) (x2 : Vec F S128x128 .f32) : sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero hzero2, View.readCov_unit_zero _ hzero2]
  simp only [View.readAt_eq_ld, harg1.read_unread, harg2.read_unread, harg3.read_unread, View.ld_unit_zero (S := S1024x128) hzero2, View.ld_unit_zero (S := S128x128) hzero2]

/-- What a middle point leaves in the accumulator: the tile's product added to what it found. -/
theorem sout0_B_0_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S1024x128 .f32) (x1 : Vec F S128x128 .f32) (x2 : Vec F S128x128 .f32) (xs0 : Vec F S128x128 .f32) : sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hzero2]
  simp only [View.readAt_eq_ld, harg1.read_unread, harg2.read_unread, harg3.read_unread, harg5.read_unread, View.ld_unit_zero (S := S1024x128) hzero2, View.ld_unit_zero (S := S128x128) hzero2]

/-- The last point leaves the same in the accumulator, -/
theorem sout0_C_0_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hzero2]
  simp only [View.readAt_eq_ld, harg1.read_unread, harg2.read_unread, harg3.read_unread, harg5.read_unread, View.ld_unit_zero (S := S1024x128) hzero2, View.ld_unit_zero (S := S128x128) hzero2]

/-- and copies it into the output window's buffer. -/
theorem out0_C_3_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S1024x128 .f32) (x1 : Vec F S128x128 .f32) (x2 : Vec F S128x128 .f32) (xs0 : Vec F S128x128 .f32) : out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hzero2, View.readCov_unit_zero _ hzero2]
  simp only [View.readAt_eq_ld, harg1.read_unread, harg2.read_unread, harg3.read_unread, harg5.read_unread, View.ld_unit_zero (S := S1024x128) hzero2, View.ld_unit_zero (S := S128x128) hzero2]

end AnyF

/-! ## The payloads at an index, over the extended reals -/

/-- The reset value is the zero array. -/
theorem reset_apply (f e : Fin 128) : k0_pay1 (F := Ideal) (ix2 f e) = 0 := by
  unfold k0_pay1
  (try dsimp only)
  rw [shapeCast_self]
  exact Ideal.ofBits_zero_f32

/-- One step of the accumulation at (f, e): the accumulator's entry plus Σ_r K_tile(r,f)·V_tile(r,e), each projection a
    sum over the input features. -/
theorem accum_apply (x0 : Vec Ideal S1024x128 .f32) (x1 x2 a : Vec Ideal S128x128 .f32) (f e : Fin 128) :
    k0_pay2 (F := Ideal) x0 x1 x2 a (ix2 f e)
      = a (ix2 f e) + ∑ r : Fin 1024, (∑ d : Fin 128, x0 (ix2 r d) * x1 (ix2 f d)) * (∑ d : Fin 128, x0 (ix2 r d) * x2 (ix2 e d)) := by
  unfold k0_pay2
  (try dsimp only)
  rw [shapeCast_self]
  refine congrArg (a (ix2 f e) + ·) ?_
  refine (TransposedLhsDot.matmul_zero_apply _ rfl none _ _ f e).trans ?_
  refine Finset.sum_congr rfl fun r _ => ?_
  refine congrArg₂ (· * ·) ?_ ?_
  · exact TransposedDot.matmul_zero_apply _ rfl none _ _ r f
  · exact TransposedDot.matmul_zero_apply _ rfl none _ _ r e

/-! ## The blocks the body reads -/

variable (V : (c : Dev nD) → (b : Ref sig .tc) → Buf (Elt Ideal) ((c : Thread nD τ).loc b))

/-- The printed index maps, decided over the grid: the tile of rows moves with the point, the weights and the
    output stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row r of the point's tile of X is row t·1024 + r of X. -/
theorem iblk0_0_apply (c : Dev nD) (t : Fin cfg0.N) (ht : t.val < 8) (r : Fin 1024) (d : Fin 128) :
    iblk0 V c 0 t (ix2 r d) = V c main_arg0 (ix2 (Cert.Spec.row ⟨t.val, ht⟩ r) d) := by
  show V c main_arg0 (((cfg0.win 0).blk t).view.emb (ix2 r d)) = _
  refine congrArg _ (funext fun a => Fin.ext ?_)
  obtain ⟨e0, e1, -⟩ := idx_facts0 t
  match a with
  | ⟨0, _⟩ => show win0_0.index t (0 : Fin 2) * 1024 + 1 * r.val = t.val * 1024 + r.val; omega
  | ⟨1, _⟩ => show win0_0.index t (1 : Fin 2) * 128 + 1 * d.val = d.val; omega

/-- The Wk window's block is the whole of Wk, -/
theorem iblk0_1_apply (c : Dev nD) (t : Fin cfg0.N) (f d : Fin 128) :
    iblk0 V c 1 t (ix2 f d) = V c main_arg2 (ix2 f d) := by
  show V c main_arg2 (((cfg0.win 1).blk t).view.emb (ix2 f d)) = _
  refine congrArg _ (funext fun a => Fin.ext ?_)
  obtain ⟨-, -, e2, e3, -⟩ := idx_facts0 t
  match a with
  | ⟨0, _⟩ => show win0_1.index t (0 : Fin 2) * 128 + 1 * f.val = f.val; omega
  | ⟨1, _⟩ => show win0_1.index t (1 : Fin 2) * 128 + 1 * d.val = d.val; omega

/-- and the Wv window's the whole of Wv. -/
theorem iblk0_2_apply (c : Dev nD) (t : Fin cfg0.N) (f d : Fin 128) :
    iblk0 V c 2 t (ix2 f d) = V c main_arg3 (ix2 f d) := by
  show V c main_arg3 (((cfg0.win 2).blk t).view.emb (ix2 f d)) = _
  refine congrArg _ (funext fun a => Fin.ext ?_)
  obtain ⟨-, -, -, -, e4, e5, -⟩ := idx_facts0 t
  match a with
  | ⟨0, _⟩ => show win0_2.index t (0 : Fin 2) * 128 + 1 * f.val = f.val; omega
  | ⟨1, _⟩ => show win0_2.index t (1 : Fin 2) * 128 + 1 * d.val = d.val; omega

/-! ## The accumulator after each point -/

/-- The tile's contribution at a position that is a grid point, zero elsewhere. -/
def tileAt (c : Dev nD) (s : ℕ) (f e : Fin 128) : EReal :=
  if h : s < 8 then Cert.Spec.kvTile (V c main_arg0) (V c main_arg2) (V c main_arg3) ⟨s, h⟩ f e else 0

/-- One step applied at point t to an accumulator a: a's entry plus the tile's contribution. -/
theorem step_apply (c : Dev nD) (t : Fin cfg0.N) (a : Vec Ideal S128x128 .f32) (f e : Fin 128) :
    k0_pay2 (F := Ideal) (iblk0 V c 0 t) (iblk0 V c 1 t) (iblk0 V c 2 t) a (ix2 f e) = a (ix2 f e) + tileAt V c t.val f e := by
  have ht : t.val < 8 := lt_of_lt_of_eq t.isLt (show cfg0.N = 8 from N_0)
  refine (accum_apply _ _ _ _ f e).trans ?_
  unfold tileAt
  rw [dif_pos ht]
  unfold Cert.Spec.kvTile Cert.Spec.proj
  simp only [iblk0_0_apply V c t ht, iblk0_1_apply, iblk0_2_apply]

/-- After point n the accumulator holds the sum of the tiles 0 … n, entry by entry. -/
theorem acc_eq (c : Dev nD) : ∀ (n : ℕ) (hn : n < cfg0.N) (f e : Fin 128),
    (outsAt0 V c n hn).2 (ix2 f e) = ∑ s ∈ Finset.range (n + 1), tileAt V c s f e := by
  intro n
  induction n with
  | zero =>
    intro hn f e
    have h := outsAt0_A V c ⟨0, hn⟩ (Nat.zero_mod _) (by show ¬ 0 % 8 = 7; decide)
    refine (congrFun (congrArg Prod.snd h) (ix2 f e)).trans ?_
    dsimp only
    rw [sout0_A_0_eq]
    refine (step_apply V c ⟨0, hn⟩ _ f e).trans ?_
    rw [reset_apply, zero_add, Finset.sum_range_one]
  | succ n ih =>
    intro hn f e
    have hN : n + 1 < 8 := lt_of_lt_of_eq hn (show cfg0.N = 8 from N_0)
    have h0 : ¬ (n + 1) % 8 = 0 := by omega
    rw [Finset.sum_range_succ, ← ih (Nat.lt_of_succ_lt hn) f e]
    by_cases h1 : (n + 1) % 8 = 7
    · have h := outsAt0_C V c ⟨n + 1, hn⟩ h0 h1
      refine (congrFun (congrArg Prod.snd h) (ix2 f e)).trans ?_
      dsimp only
      rw [sout0_C_0_eq]
      exact step_apply V c ⟨n + 1, hn⟩ _ f e
    · have h := outsAt0_B V c ⟨n + 1, hn⟩ h0 h1
      refine (congrFun (congrArg Prod.snd h) (ix2 f e)).trans ?_
      dsimp only
      rw [sout0_B_0_eq]
      exact step_apply V c ⟨n + 1, hn⟩ _ f e

/-- At the last point the output window's buffer is left holding the accumulator. -/
theorem out_eq_acc (c : Dev nD) (t : Fin cfg0.N) (h7 : t.val % 8 = 7) :
    (outsAt0 V c t.val t.isLt).1 = (outsAt0 V c t.val t.isLt).2 := by
  have hN : t.val < 8 := lt_of_lt_of_eq t.isLt (show cfg0.N = 8 from N_0)
  rw [outsAt0_C V c t (by omega) h7]
  dsimp only
  rw [out0_C_3_eq, sout0_C_0_eq]

/-- The eight tiles' contributions add up to KᵀV. -/
theorem sum_tiles (c : Dev nD) (f e : Fin 128) :
    ∑ s ∈ Finset.range 8, tileAt V c s f e = Cert.Spec.kv (V c main_arg0) (V c main_arg2) (V c main_arg3) f e := by
  unfold Cert.Spec.kv
  rw [Finset.sum_range]
  exact Finset.sum_congr rfl fun s _ => by unfold tileAt; rw [dif_pos s.isLt]

/-! ## The intermediate array after the region -/

/-- An index of the intermediate array is in a point's output block iff each coordinate is in the block's range. -/
theorem mem_blk3 (t : Fin cfg0.N) (i : S128x128.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v0).slice (win0_3.rect t)).set ↔ _
  rw [View.set_slice_whole, Rect.mem_set_unit]
  exact Iff.rfl

/-- What the one flushing point writes back is the whole of KᵀV. -/
theorem flushed3_eq (c : Dev nD) (t : Fin cfg0.N) (hf : (cfg0.win 3).flush t = true) :
    (dat0 V c).flushed 3 t = ((cfg0.win 3).blk t).view.read (Elt Ideal) (Cert.Spec.kvArr (V c main_arg0) (V c main_arg2) (V c main_arg3)) := by
  have h7 : t.val % 8 = 7 := (flush0_3 t).mp hf
  have hN : t.val < 8 := lt_of_lt_of_eq t.isLt (show cfg0.N = 8 from N_0)
  show (cfg0.win 3).cut (grid0.coords t) ((dat0 V c).after 3 t) = _
  rw [after0_3, out_eq_acc V c t h7]
  funext j
  obtain ⟨f, e, rfl⟩ : ∃ (f e : Fin 128), j = ix2 f e := ⟨j 0, j 1, eq_ix2 j⟩
  show (outsAt0 V c t.val t.isLt).2 (ix2 f e) = Cert.Spec.kvArr (V c main_arg0) (V c main_arg2) (V c main_arg3) (((cfg0.win 3).blk t).view.emb (ix2 f e))
  have hemb : ((cfg0.win 3).blk t).view.emb (ix2 f e) = ix2 f e := by
    funext a; apply Fin.ext
    obtain ⟨-, -, -, -, -, -, e6, e7⟩ := idx_facts0 t
    match a with
    | ⟨0, _⟩ => show win0_3.index t (0 : Fin 2) * 128 + 1 * f.val = f.val; omega
    | ⟨1, _⟩ => show win0_3.index t (1 : Fin 2) * 128 + 1 * e.val = e.val; omega
  rw [hemb, acc_eq V c t.val t.isLt f e, show t.val + 1 = 8 from by omega, sum_tiles]
  rfl

/-- THE INTERMEDIATE ARRAY after region 0: KᵀV of the arrays the region was entered with. -/
theorem final0 (c : Dev nD) :
    (dat0 V c).arrAt 3 cfg0.N = Cert.Spec.kvArr (V c main_arg0) (V c main_arg2) (V c main_arg3) := by
  refine (dat0 V c).arrAt_eq_of_cover 3 _ (fun t ht => flushed3_eq V c t ht) (fun i => ?_)
  have h7 : (7 : ℕ) < cfg0.N := by rw [show cfg0.N = 8 from N_0]; decide
  refine ⟨⟨7, h7⟩, (flush0_3 ⟨7, h7⟩).mpr (by show 7 % 8 = 7; decide), ?_⟩
  rw [mem_blk3]
  obtain ⟨-, -, -, -, -, -, e6, e7⟩ := idx_facts0 ⟨7, h7⟩
  have hi0 : (i 0).val < 128 := (i 0).isLt
  have hi1 : (i 1).val < 128 := (i 1).isLt
  intro a
  match a with
  | ⟨0, _⟩ => show win0_3.index ⟨7, h7⟩ (0 : Fin 2) * 128 ≤ (i 0).val ∧ (i 0).val < win0_3.index ⟨7, h7⟩ (0 : Fin 2) * 128 + 128; omega
  | ⟨1, _⟩ => show win0_3.index ⟨7, h7⟩ (1 : Fin 2) * 128 ≤ (i 1).val ∧ (i 1).val < win0_3.index ⟨7, h7⟩ (1 : Fin 2) * 128 + 128; omega

end Cert.KernelIdeal.Hand

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.KI.Value1.lean ====
/-
  Region 1's output array after the run, read at the extended reals as one function of the buffer contents the
  region is entered with.

  At a grid point the body stores, at entry r of the 1024-entry output block,
      Σ_e (Σ_f (Σ_d x0(r,d)·x1(f,d))·x2(f,e))·x3(0,e) + x4(0)
  of its five input blocks: the two changes of float format are the identity at the extended reals, the two matrix
  products into a zero accumulator are plain sums, the head row is broadcast over the rows, the sum over the last axis is
  a finite sum and the offset is added to every entry. Block t of window 0 is rows t·1024 … t·1024+1023 of the input
  and the other four input blocks are their whole arrays; block t of the output is entries t·1024 … t·1024+1023. So what
  point t writes back is block t of the one function  n ↦ headAt X Wq M w b n  of the entry contents, and the eight
  blocks cover the 8192 entries (entry n lies in block n / 1024): the output array ends holding that function.
-/
import proofs.«145879_j15444702396584_1_alg».proof.Proof.KI.Region1
import proofs.«145879_j15444702396584_1_alg».proof.Proof.Spec
import proofs.«145879_j15444702396584_1_alg».proof.Proof.LibTransposedDot
import proofs.«145879_j15444702396584_1_alg».proof.Proof.LibPlainDot
import proofs.«145879_j15444702396584_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's payload at an entry -/

/-- The stored 1024-vector at entry `r`, over the five loaded blocks. -/
theorem pay1_apply (x0 : Vec Ideal S1024x128 .f32) (x1 x2 : Vec Ideal S128x128 .f32) (x3 : Vec Ideal S1x128 .f32)
    (x4 : Vec Ideal S1 .f32) (r : Fin 1024) :
    k1_pay1 x0 x1 x2 x3 x4 (ix1 r)
      = (∑ e : Fin 128, (∑ f : Fin 128, (∑ d : Fin 128, x0 (ix2 r d) * x1 (ix2 f d)) * x2 (ix2 f e)) * x3 (ix2 (0 : Fin 1) e))
        + x4 (ix1 (0 : Fin 1)) := by
  unfold k1_pay1
  refine (addf_apply _ _ _).trans (congrArg₂ (· + ·) ?_ ?_)
  · -- the sum over the last axis of (Q·M) ⊙ (head row broadcast over the rows)
    refine (RowReduce.multiReduction_add_row _ _ _ _ _ r).trans (Finset.sum_congr rfl fun e _ => ?_)
    refine (mulf_apply _ _ _).trans (congrArg₂ (· * ·) ?_ ?_)
    · -- Q·M at (r, e): a plain product
      refine (PlainDot.matmul_zero_apply _ rfl none _ _ r e).trans (Finset.sum_congr rfl fun f _ => congrArg₂ (· * ·) ?_ ?_)
      · -- Q at (r, f): X·Wqᵀ, the right operand contracted on its last axis
        exact TransposedDot.matmul_zero_apply _ rfl none _ _ r f
      · exact congrFun (shapeCast_self x2 _) _
    · exact (broadcastTo_1b_ab_apply _ _ r e).trans (congrFun (shapeCast_self x3 _) _)
  · -- the offset, extracted from its 1-vector and broadcast over the entries
    exact congrArg x4 (funext fun a => by match a with | ⟨0, _⟩ => rfl)

/-- The same with the head's specification on the right: for blocks that are the rows of `X` around row `n` and the
    whole arrays `Wq`, `M`, `hw`, `hb`, entry `r` of the stored vector is the prediction of row `n`. -/
theorem pay1_eq_headAt (X : Cert.Spec.SX.Idx → EReal) (Wq M : Cert.Spec.SW.Idx → EReal) (hw : Cert.Spec.SH.Idx → EReal)
    (hb : Cert.Spec.SB.Idx → EReal)
    (x0 : Vec Ideal S1024x128 .f32) (x1 x2 : Vec Ideal S128x128 .f32) (x3 : Vec Ideal S1x128 .f32) (x4 : Vec Ideal S1 .f32)
    (n : Fin 8192) (r : Fin 1024)
    (h0 : ∀ d : Fin 128, x0 (ix2 r d) = X (ix2 n d)) (h1 : x1 = Wq) (h2 : x2 = M) (h3 : x3 = hw) (h4 : x4 = hb) :
    k1_pay1 x0 x1 x2 x3 x4 (ix1 r) = Cert.Spec.headAt X Wq M hw hb n := by
  rw [pay1_apply]
  subst h1 h2 h3 h4
  unfold Cert.Spec.headAt Cert.Spec.proj
  simp only [h0]

/-! ## From blocks to the array -/

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- The printed index maps, decided over the eight points: window 0 and the output move with the point along their
    first axis; the other four windows stay at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = t.val :=
  (by decide +kernel : ∀ t : Fin grid1.N, _)

/-- The array the region's output ends holding: the prediction of every row, from the entry contents. -/
abbrev G5 (c : Dev nD) : S8192.Idx → EReal := fun i =>
  Cert.Spec.headAt (V c main_arg0) (V c main_arg1) (V c main_v0) (V c main_arg4) (V c main_arg5) (i 0)

/-- What point `t` writes back is block `t` of `G5`. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 V c).after 5 t) = _
  rw [after1_5]
  unfold out1_5
  rw [View.canon_unit_zero hz1]
  simp only [View.ld_unit_zero (S := S1024x128) hz2, View.ld_unit_zero (S := S128x128) hz2,
    View.ld_unit_zero (S := S1x128) hz2, View.ld_unit_zero (S := S1) hz1]
  obtain ⟨e00, e01, e10, e11, e20, e21, e30, e31, e40, e50⟩ := idx_facts1 t
  funext j
  have hr : (j 0).val < 1024 := (j 0).isLt
  have hj : (win1_5.xinj (grid1.coords t) j : S1024.Idx) = ix1 (⟨(j 0).val, hr⟩ : Fin 1024) :=
    funext fun a => by match a with | ⟨0, _⟩ => rfl
  show k1_pay1 (iblk1 V c 0 t) (iblk1 V c 1 t) (iblk1 V c 2 t) (iblk1 V c 3 t) (iblk1 V c 4 t) (win1_5.xinj (grid1.coords t) j)
    = G5 V c (((cfg1.win 5).blk t).view.emb j)
  refine (congrArg (k1_pay1 (iblk1 V c 0 t) (iblk1 V c 1 t) (iblk1 V c 2 t) (iblk1 V c 3 t) (iblk1 V c 4 t)) hj).trans ?_
  refine pay1_eq_headAt (V c main_arg0) (V c main_arg1) (V c main_v0) (V c main_arg4) (V c main_arg5)
    (iblk1 V c 0 t) (iblk1 V c 1 t) (iblk1 V c 2 t) (iblk1 V c 3 t) (iblk1 V c 4 t)
    (((cfg1.win 5).blk t).view.emb j 0) ⟨(j 0).val, hr⟩ ?_ ?_ ?_ ?_ ?_
  · -- row r of window 0's block at point t is row t·1024 + r of the input, the row the output's entry r of block t is
    intro d
    unfold iblk1
    rw [View.read_apply]
    show V c main_arg0 (((cfg1.win 0).blk t).view.emb (ix2 (⟨(j 0).val, hr⟩ : Fin 1024) d))
      = V c main_arg0 (ix2 (((cfg1.win 5).blk t).view.emb j 0) d)
    refine congrArg (V c main_arg0) (funext fun a => Fin.ext ?_)
    match a with
    | ⟨0, _⟩ => show win1_0.index t (0 : Fin 2) * 1024 + 1 * (j 0).val = win1_5.index t (0 : Fin 1) * 1024 + 1 * (j 0).val; omega
    | ⟨1, _⟩ => show win1_0.index t (1 : Fin 2) * 128 + 1 * d.val = d.val; omega
  · -- window 1's one block is its whole array
    funext y
    unfold iblk1
    rw [View.read_apply]
    show V c main_arg1 (((cfg1.win 1).blk t).view.emb y) = V c main_arg1 y
    refine congrArg (V c main_arg1) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · -- window 2's one block is its whole array
    funext y
    unfold iblk1
    rw [View.read_apply]
    show V c main_v0 (((cfg1.win 2).blk t).view.emb y) = V c main_v0 y
    refine congrArg (V c main_v0) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · -- window 3's one block is its whole array
    funext y
    unfold iblk1
    rw [View.read_apply]
    show V c main_arg4 (((cfg1.win 3).blk t).view.emb y) = V c main_arg4 y
    refine congrArg (V c main_arg4) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · -- window 4's one block is its whole array
    funext y
    unfold iblk1
    rw [View.read_apply]
    show V c main_arg5 (((cfg1.win 4).blk t).view.emb y) = V c main_arg5 y
    refine congrArg (V c main_arg5) (funext fun a => Fin.ext ?_)
    match a with
    | ⟨0, _⟩ => show win1_4.index t (0 : Fin 1) * 1 + 1 * (y 0).val = (y 0).val; omega

/-- An entry of the output array is in point `t`'s block iff it lies in the block's range. -/
theorem mem_blk5 (t : Fin cfg1.N) (i : S8192.Idx) :
    i ∈ ((cfg1.win 5).blk t).view.set ↔ ∀ a : Fin 1, win1_5.index t a * S1024.size a ≤ (i a).val ∧ (i a).val < win1_5.index t a * S1024.size a + S1024.size a := by
  show i ∈ ((View.whole main_v1).slice (win1_5.rect t)).set ↔ _
  rw [View.set_slice_whole, Rect.mem_set_unit]
  exact Iff.rfl

/-- Every entry is in some point's block: entry `n` in the block of point `n / 1024`, and every point writes back. -/
theorem cover5 (i : S8192.Idx) : ∃ t : Fin cfg1.N, (cfg1.win 5).flush t = true ∧ i ∈ ((cfg1.win 5).blk t).view.set := by
  have hi : (i 0).val < 8192 := (i 0).isLt
  have ht : (i 0).val / 1024 < grid1.N := Nat.lt_of_lt_of_eq (by omega : (i 0).val / 1024 < 8) N_1.symm
  refine ⟨⟨(i 0).val / 1024, ht⟩, flush1_5 _, ?_⟩
  rw [mem_blk5]
  intro a
  have e50 : win1_5.index ⟨(i 0).val / 1024, ht⟩ (0 : Fin 1) = (i 0).val / 1024 := (idx_facts1 ⟨(i 0).val / 1024, ht⟩).2.2.2.2.2.2.2.2.2
  match a with
  | ⟨0, _⟩ =>
    show win1_5.index ⟨(i 0).val / 1024, ht⟩ (0 : Fin 1) * 1024 ≤ (i 0).val
      ∧ (i 0).val < win1_5.index ⟨(i 0).val / 1024, ht⟩ (0 : Fin 1) * 1024 + 1024
    rw [e50]; omega

/-- THE OUTPUT ARRAY after the region's run: the prediction of every row, as one function of the entry contents. -/
theorem final1 (c : Dev nD) :
    (dat1 (F := Ideal) V c).arrAt 5 cfg1.N = fun i =>
      Cert.Spec.headAt (V c main_arg0) (V c main_arg1) (V c main_v0) (V c main_arg4) (V c main_arg5) (i 0) :=
  (dat1 (F := Ideal) V c).arrAt_eq_of_cover 5 (G5 V c) (fun t _ => flushed5_eq V c t) cover5

end Cert.KernelIdeal.Hand

end
-- ==== Proof.KI.Value.lean ====
/-
  The idealized kernel's run, read: the result array ends at the linear arrangement Q·(KᵀV) of the head, as one function
  of the six argument arrays. Region 1's write-backs fold to the head applied to Q times the intermediate array it was
  entered with; that array is what region 0 left, KᵀV of the launch contents; every argument reaches region 1 unchanged.
-/
import proofs.«145879_j15444702396584_1_alg».proof.Proof.KI.Run
import proofs.«145879_j15444702396584_1_alg».proof.Proof.KI.Value0
import proofs.«145879_j15444702396584_1_alg».proof.Proof.KI.Value1

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The arguments region 1 reads, and the intermediate array, at region 1's entry. -/
theorem V1_main_arg0 (c : Dev nD) : V1 m ρ c main_arg0 = m ((c : Thread nD τ).loc main_arg0) := W1_main_arg0 m ρ c
theorem V1_main_arg1 (c : Dev nD) : V1 m ρ c main_arg1 = m ((c : Thread nD τ).loc main_arg1) := W1_main_arg1 m ρ c
theorem V1_main_arg4 (c : Dev nD) : V1 m ρ c main_arg4 = m ((c : Thread nD τ).loc main_arg4) := W1_main_arg4 m ρ c
theorem V1_main_arg5 (c : Dev nD) : V1 m ρ c main_arg5 = m ((c : Thread nD τ).loc main_arg5) := W1_main_arg5 m ρ c
theorem V1_main_v0 (c : Dev nD) : V1 m ρ c main_v0 = (dat0 (V0 m ρ) c).arrAt 3 cfg0.N := W1_main_v0 m ρ c
/-- The arguments region 0 reads, at the launch. -/
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl
theorem V0_main_arg3 (c : Dev nD) : V0 m ρ c main_arg3 = m ((c : Thread nD τ).loc main_arg3) := rfl

/-- What region 1's write-backs fold to, as a function of the launch contents. -/
theorem result_eq (c : Dev nD) :
    (dat1 (F := Ideal) (V1 m ρ) c).arrAt 5 cfg1.N
      = Cert.Spec.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final1 (V1 m ρ) c, V1_main_arg0, V1_main_arg1, V1_main_arg4, V1_main_arg5, V1_main_v0, final0 (V0 m ρ) c,
    V0_main_arg0, V0_main_arg2, V0_main_arg3]
  rfl

/-- THE RUN, READ: every weakly fair execution terminates with the result array at `kernelOut` of the argument arrays and
    the arguments unchanged. -/
theorem run_value : θ_run defs (onTc (τ := τ) (main (F := Ideal))) ⟨m, fun _ => 0, ρ⟩ (fun r => ∀ c : Dev nD,
      r.2.mem ((c.tc : Thread nD τ).loc main_v1)
        = Cert.Spec.kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_all (F := Ideal) m ρ)

end Cert.KernelIdeal.Hand

end
-- ==== Proof.RefValue.lean ====
/-
  What the reference computes, read index by index.

  The reference forms Q = X·Wqᵀ, K = X·Wkᵀ, V = X·Wvᵀ as contractions over the 128 input features against transposed
  weights, the 8192×8192 matrix of scores S = Q·Kᵀ (a contraction over the 128 features against the transposed K),
  Z = S·V (a contraction over the 8192 rows), and the prediction Z·wᵀ + b, the bias broadcast along the rows and
  the column of predictions reshaped to a vector.  Read at one index, each contraction is a finite sum of products
  and each transpose, broadcast or reshape only moves the index; composing them, entry n of the result is
      Σ_e (Σ_r (Σ_f Q(n,f)·K(r,f))·V(r,e))·w(0,e) + b(0),
  the quadratic arrangement of the specification.
-/
import proofs.«145879_j15444702396584_1_alg».proof.Proof.Gen.ReferenceIdeal.Read
import proofs.«145879_j15444702396584_1_alg».proof.Proof.Gen.Pre_finite_inputs
import proofs.«145879_j15444702396584_1_alg».proof.Proof.Spec
import proofs.«145879_j15444702396584_1_alg».proof.Defs

noncomputable section

open scoped BigOperators

namespace Cert.RefValue

open Cert.ReferenceIdeal Cert.ReferenceIdeal.Read Idealize.ShloMosaic Idealize.ShloMosaic.TcCoe Idealize.SL.Sem
  Idealize.ShloMosaic.ValueIdx

/-! ## Where each operation reads its operands, in coordinates -/

/-- A transposed 128×128 weight at (a, b) is the weight at (b, a). -/
theorem idx0_ix (a b : Fin 128) : idx_main_v0 (ix2 a b) = ix2 b a :=
  funext fun d => match d with | ⟨0, _⟩ => rfl | ⟨1, _⟩ => rfl
theorem idx2_ix (a b : Fin 128) : idx_main_v2 (ix2 a b) = ix2 b a :=
  funext fun d => match d with | ⟨0, _⟩ => rfl | ⟨1, _⟩ => rfl
theorem idx6_ix (a b : Fin 128) : idx_main_v6 (ix2 a b) = ix2 b a :=
  funext fun d => match d with | ⟨0, _⟩ => rfl | ⟨1, _⟩ => rfl
/-- The transposed K at (f, r) is K at (r, f). -/
theorem idx4_ix (f : Fin 128) (r : Fin 8192) : idx_main_v4 (ix2 f r) = ix2 r f :=
  funext fun d => match d with | ⟨0, _⟩ => rfl | ⟨1, _⟩ => rfl
/-- The transposed head weight at (e, z) is the head weight at (z, e). -/
theorem idx9_ix (e : Fin 128) (z : Fin 1) : idx_main_v9 (ix2 e z) = ix2 z e :=
  funext fun d => match d with | ⟨0, _⟩ => rfl | ⟨1, _⟩ => rfl

/-- A projection's contraction at (n, f), term k: the input at (n, k) … -/
theorem lidx1_ix (n : Fin 8192) (f k : Fin 128) : lidx_main_v1 (ix2 n f) k = ix2 n k :=
  funext fun d => match d with | ⟨0, _⟩ => rfl | ⟨1, _⟩ => rfl
/-- … against the transposed weight at (k, f). -/
theorem ridx1_ix (n : Fin 8192) (f k : Fin 128) : ridx_main_v1 (ix2 n f) k = ix2 k f :=
  funext fun d => match d with | ⟨0, _⟩ => rfl | ⟨1, _⟩ => rfl
theorem lidx3_ix (n : Fin 8192) (f k : Fin 128) : lidx_main_v3 (ix2 n f) k = ix2 n k :=
  funext fun d => match d with | ⟨0, _⟩ => rfl | ⟨1, _⟩ => rfl
theorem ridx3_ix (n : Fin 8192) (f k : Fin 128) : ridx_main_v3 (ix2 n f) k = ix2 k f :=
  funext fun d => match d with | ⟨0, _⟩ => rfl | ⟨1, _⟩ => rfl
theorem lidx7_ix (n : Fin 8192) (f k : Fin 128) : lidx_main_v7 (ix2 n f) k = ix2 n k :=
  funext fun d => match d with | ⟨0, _⟩ => rfl | ⟨1, _⟩ => rfl
theorem ridx7_ix (n : Fin 8192) (f k : Fin 128) : ridx_main_v7 (ix2 n f) k = ix2 k f :=
  funext fun d => match d with | ⟨0, _⟩ => rfl | ⟨1, _⟩ => rfl
/-- The score at (n, r), term f: Q at (n, f) against the transposed K at (f, r). -/
theorem lidx5_ix (n r : Fin 8192) (f : Fin 128) : lidx_main_v5 (ix2 n r) f = ix2 n f :=
  funext fun d => match d with | ⟨0, _⟩ => rfl | ⟨1, _⟩ => rfl
theorem ridx5_ix (n r : Fin 8192) (f : Fin 128) : ridx_main_v5 (ix2 n r) f = ix2 f r :=
  funext fun d => match d with | ⟨0, _⟩ => rfl | ⟨1, _⟩ => rfl
/-- Z at (n, e), term r: the score at (n, r) against V at (r, e). -/
theorem lidx8_ix (n : Fin 8192) (e : Fin 128) (r : Fin 8192) : lidx_main_v8 (ix2 n e) r = ix2 n r :=
  funext fun d => match d with | ⟨0, _⟩ => rfl | ⟨1, _⟩ => rfl
theorem ridx8_ix (n : Fin 8192) (e : Fin 128) (r : Fin 8192) : ridx_main_v8 (ix2 n e) r = ix2 r e :=
  funext fun d => match d with | ⟨0, _⟩ => rfl | ⟨1, _⟩ => rfl
/-- The prediction at (n, z), term e: Z at (n, e) against the transposed head weight at (e, z). -/
theorem lidx10_ix (n : Fin 8192) (z : Fin 1) (e : Fin 128) : lidx_main_v10 (ix2 n z) e = ix2 n e :=
  funext fun d => match d with | ⟨0, _⟩ => rfl | ⟨1, _⟩ => rfl
theorem ridx10_ix (n : Fin 8192) (z : Fin 1) (e : Fin 128) : ridx_main_v10 (ix2 n z) e = ix2 e z :=
  funext fun d => match d with | ⟨0, _⟩ => rfl | ⟨1, _⟩ => rfl
/-- The bias broadcast to a column reads the one bias entry. -/
theorem idx12_ix (j : S8192x1.Idx) : idx_main_v12 j = ix2 0 0 :=
  funext fun d => match d with | ⟨0, _⟩ => rfl | ⟨1, _⟩ => rfl
theorem idx11_ix (j : S1x1.Idx) : idx_main_v11 j = ix1 0 :=
  funext fun d => match d with | ⟨0, _⟩ => rfl
/-- Entry n of the vector of predictions is entry (n, 0) of the column. -/
theorem idx14_ix (n : Fin 8192) : idx_main_v14 (ix1 n) = ix2 n 0 :=
  funext fun d => match d with
    | ⟨0, _⟩ => Fin.ext (Nat.div_one _)
    | ⟨1, _⟩ => rfl

/-! ## The stages at an index -/

section Stages
variable (X : (⟨S8192x128, .f32⟩ : BufTy).Contents (Elt Ideal)) (Wq Wk Wv : (⟨S128x128, .f32⟩ : BufTy).Contents (Elt Ideal))
  (hw : (⟨S1x128, .f32⟩ : BufTy).Contents (Elt Ideal)) (hb : (⟨S1, .f32⟩ : BufTy).Contents (Elt Ideal))

/-- Q(n, f) = Σ_d X(n,d)·Wq(f,d). -/
theorem q_at (n : Fin 8192) (f : Fin 128) : val_main_v1 (F := Ideal) X Wq (ix2 n f) = Spec.proj X Wq n f := by
  rw [val_main_v1_apply]
  unfold Spec.proj
  refine Finset.sum_congr rfl fun k _ => ?_
  rw [val_main_v0_apply, lidx1_ix, ridx1_ix, idx0_ix]

/-- K(r, f) = Σ_d X(r,d)·Wk(f,d). -/
theorem k_at (r : Fin 8192) (f : Fin 128) : val_main_v3 (F := Ideal) X Wk (ix2 r f) = Spec.proj X Wk r f := by
  rw [val_main_v3_apply]
  unfold Spec.proj
  refine Finset.sum_congr rfl fun k _ => ?_
  rw [val_main_v2_apply, lidx3_ix, ridx3_ix, idx2_ix]

/-- V(r, e) = Σ_d X(r,d)·Wv(e,d). -/
theorem v_at (r : Fin 8192) (e : Fin 128) : val_main_v7 (F := Ideal) X Wv (ix2 r e) = Spec.proj X Wv r e := by
  rw [val_main_v7_apply]
  unfold Spec.proj
  refine Finset.sum_congr rfl fun k _ => ?_
  rw [val_main_v6_apply, lidx7_ix, ridx7_ix, idx6_ix]

/-- The score S(n, r) = Σ_f Q(n,f)·K(r,f). -/
theorem s_at (n r : Fin 8192) :
    val_main_v5 (F := Ideal) X Wq Wk (ix2 n r) = ∑ f : Fin 128, Spec.proj X Wq n f * Spec.proj X Wk r f := by
  rw [val_main_v5_apply]
  refine Finset.sum_congr rfl fun f _ => ?_
  rw [val_main_v4_apply, lidx5_ix, ridx5_ix, idx4_ix, q_at, k_at]

/-- Z(n, e) = Σ_r S(n,r)·V(r,e). -/
theorem z_at (n : Fin 8192) (e : Fin 128) :
    val_main_v8 (F := Ideal) X Wq Wk Wv (ix2 n e)
      = ∑ r : Fin 8192, (∑ f : Fin 128, Spec.proj X Wq n f * Spec.proj X Wk r f) * Spec.proj X Wv r e := by
  rw [val_main_v8_apply]
  refine Finset.sum_congr rfl fun r _ => ?_
  rw [lidx8_ix, ridx8_ix, s_at, v_at]

/-- The column of predictions before the bias: Σ_e Z(n,e)·w(0,e). -/
theorem head_at (n : Fin 8192) :
    val_main_v10 (F := Ideal) X Wq Wk Wv hw (ix2 n 0)
      = ∑ e : Fin 128, (∑ r : Fin 8192, (∑ f : Fin 128, Spec.proj X Wq n f * Spec.proj X Wk r f) * Spec.proj X Wv r e)
          * hw (ix2 0 e) := by
  rw [val_main_v10_apply]
  refine Finset.sum_congr rfl fun e _ => ?_
  rw [val_main_v9_apply, lidx10_ix, ridx10_ix, idx9_ix, z_at]

/-- The broadcast bias is the one bias entry everywhere. -/
theorem bias_at (j : S8192x1.Idx) : val_main_v12 (F := Ideal) hb j = hb (ix1 0) := by
  rw [val_main_v12_apply, val_main_v11_apply, idx11_ix]

/-- The reference's result is the quadratic arrangement of the specification. -/
theorem ref_value : val_main_v14 (F := Ideal) X Wq Wk Wv hw hb = Spec.refOut X Wq Wk Wv hw hb := by
  funext i
  obtain ⟨n, rfl⟩ : ∃ n : Fin 8192, i = ix1 n := ⟨i 0, eq_ix1 i⟩
  rw [val_main_v14_apply, val_main_v13_apply, idx14_ix, head_at, bias_at]
  rfl

end Stages

/-! ## The reference's run -/

/-- Every weakly fair execution of the reference terminates with its result at the quadratic arrangement of its own
    argument arrays, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v14)
        = Cert.Spec.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans ((val_main_v14_eq _ _ _ _ _ _).trans (ref_value _ _ _ _ _ _)), (h c).2⟩)
    (Cert.ReferenceIdeal.Value.run (F := Ideal) m' ρ')

/-- The reference terminates without a fault and leaves its arguments unchanged. -/
theorem ref_frame : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.Algebra.lean ====
/-
  The two arrangements of the linear-attention head agree on real inputs.

  Everything is first shown over the reals and over abstract finite index types:
  with q f, k r f, v r real,
      Σ_f q f · (Σ_r k r f · v r) = Σ_r (Σ_f q f · k r f) · v r
  by distributing both products over the sums and exchanging the two sums.  Cutting the 8192 rows into 8 tiles of
  1024 only re-indexes the sum over rows through the bijection (t, r) ↦ 1024·t + r.  On the extended reals the same
  identity holds as soon as every entry is the coercion of a real: coercion commutes with products and finite sums,
  so both sides are the coercion of the two sides of the real identity.
-/
import proofs.«145879_j15444702396584_1_alg».proof.Proof.Spec

noncomputable section

open scoped BigOperators

namespace Cert.Spec

open Idealize.ShloMosaic Idealize.ShloMosaic.ValueIdx

/-! ## The real identity, over abstract index types -/

/-- Σ_f q f · (Σ_r k r f · v r) = Σ_r (Σ_f q f · k r f) · v r. -/
theorem real_assoc {ι κ : Type*} [Fintype ι] [Fintype κ] (q : κ → ℝ) (k : ι → κ → ℝ) (v : ι → ℝ) :
    ∑ f, q f * ∑ r, k r f * v r = ∑ r, (∑ f, q f * k r f) * v r := by
  simp only [Finset.mul_sum, Finset.sum_mul]
  rw [Finset.sum_comm]
  exact Finset.sum_congr rfl fun r _ => Finset.sum_congr rfl fun f _ => by ring

/-! ## The 8192 rows as 8 tiles of 1024 -/

/-- (t, r) ↦ 1024·t + r is a bijection from 8 × 1024 onto the 8192 rows. -/
def rowEquiv : Fin 8 × Fin 1024 ≃ Fin 8192 where
  toFun p := row p.1 p.2
  invFun n := (⟨n.val / 1024, by have := n.isLt; omega⟩, ⟨n.val % 1024, by omega⟩)
  left_inv p := by
    obtain ⟨t, r⟩ := p
    have ht := t.isLt
    have hr := r.isLt
    refine Prod.ext (Fin.ext ?_) (Fin.ext ?_)
    · show (t.val * 1024 + r.val) / 1024 = t.val
      omega
    · show (t.val * 1024 + r.val) % 1024 = r.val
      omega
  right_inv n := by
    refine Fin.ext ?_
    show n.val / 1024 * 1024 + n.val % 1024 = n.val
    omega

/-- A sum tile by tile is the sum over all rows. -/
theorem sum_tiles {M : Type*} [AddCommMonoid M] (g : Fin 8192 → M) :
    ∑ t : Fin 8, ∑ r : Fin 1024, g (row t r) = ∑ n : Fin 8192, g n := by
  rw [← Fintype.sum_prod_type' (fun t r => g (row t r))]
  exact Fintype.sum_equiv rowEquiv _ _ (fun _ => rfl)

/-! ## Coercion of a finite real sum -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The identity on the extended reals, for real entries -/

/-- The linear arrangement's Z(n,e) equals the quadratic arrangement's, for real q, k, v (as coercions). -/
theorem ereal_assoc (q : Fin 128 → ℝ) (k : Fin 8192 → Fin 128 → ℝ) (v : Fin 8192 → ℝ) :
    ∑ f : Fin 128, (q f : EReal) * ∑ t : Fin 8, ∑ r : Fin 1024, (k (row t r) f : EReal) * (v (row t r) : EReal)
      = ∑ n : Fin 8192, (∑ f : Fin 128, (q f : EReal) * (k n f : EReal)) * (v n : EReal) := by
  have h : ∀ f : Fin 128, ∑ t : Fin 8, ∑ r : Fin 1024, (k (row t r) f : EReal) * (v (row t r) : EReal)
      = ∑ n : Fin 8192, (k n f : EReal) * (v n : EReal) := fun f =>
    sum_tiles (fun n => (k n f : EReal) * (v n : EReal))
  simp only [h]
  simp only [← EReal.coe_mul, ← coe_sum]
  exact congrArg Real.toEReal (real_assoc q k v)

/-- A projection of real arrays is the coercion of the real projection. -/
theorem proj_coe (x : SX.Idx → ℝ) (w : SW.Idx → ℝ) (n : Fin 8192) (f : Fin 128) :
    proj (fun i => (x i : EReal)) (fun i => (w i : EReal)) n f
      = ((∑ d : Fin 128, x (ix2 n d) * w (ix2 f d) : ℝ) : EReal) := by
  unfold proj
  simp only [← EReal.coe_mul, ← coe_sum]

/-- On real inputs the linear arrangement Q·(KᵀV) and the quadratic arrangement (Q·Kᵀ)·V give the same predictions. -/
theorem kernelOut_eq_refOut (X : SX.Idx → EReal) (Wq Wk Wv : SW.Idx → EReal) (hw : SH.Idx → EReal) (hb : SB.Idx → EReal)
    (hX : ∀ i, ∃ x : ℝ, X i = (x : EReal)) (hWq : ∀ i, ∃ x : ℝ, Wq i = (x : EReal))
    (hWk : ∀ i, ∃ x : ℝ, Wk i = (x : EReal)) (hWv : ∀ i, ∃ x : ℝ, Wv i = (x : EReal))
    (hhw : ∀ i, ∃ x : ℝ, hw i = (x : EReal)) (hhb : ∀ i, ∃ x : ℝ, hb i = (x : EReal)) :
    kernelOut X Wq Wk Wv hw hb = refOut X Wq Wk Wv hw hb := by
  choose x hx using hX
  choose wq hwq using hWq
  choose wk hwk using hWk
  choose wv hwv using hWv
  obtain rfl : X = fun i => (x i : EReal) := funext hx
  obtain rfl : Wq = fun i => (wq i : EReal) := funext hwq
  obtain rfl : Wk = fun i => (wk i : EReal) := funext hwk
  obtain rfl : Wv = fun i => (wv i : EReal) := funext hwv
  funext i
  unfold kernelOut refOut headAt refAt
  refine congrArg (· + hb (ix1 0)) ?_
  refine Finset.sum_congr rfl fun e _ => ?_
  refine congrArg (· * hw (ix2 0 e)) ?_
  have hkv : ∀ f : Fin 128, kvArr (fun i => (x i : EReal)) (fun i => (wk i : EReal)) (fun i => (wv i : EReal)) (ix2 f e)
      = ∑ t : Fin 8, ∑ r : Fin 1024,
          ((∑ d : Fin 128, x (ix2 (row t r) d) * wk (ix2 f d) : ℝ) : EReal)
            * ((∑ d : Fin 128, x (ix2 (row t r) d) * wv (ix2 e d) : ℝ) : EReal) := by
    intro f
    show kv _ _ _ f e = _
    unfold kv kvTile
    simp only [proj_coe]
  simp only [hkv, proj_coe]
  exact ereal_assoc (fun f => ∑ d : Fin 128, x (ix2 (i 0) d) * wq (ix2 f d))
    (fun n f => ∑ d : Fin 128, x (ix2 n d) * wk (ix2 f d))
    (fun n => ∑ d : Fin 128, x (ix2 n d) * wv (ix2 e d))

end Cert.Spec

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.Finite.lean ====
/-
  The precondition, decoded: every entry of every argument array is a real number.

  The precondition compares, array by array, the absolute value of each entry against +inf, reduces each
  comparison by "and" over all axes, and conjoins the six results.  The whole being true makes each of the six
  reductions true, hence each comparison true at every index, and an extended real whose absolute value is below
  +inf is neither infinity: it is a real.
-/
import proofs.«145879_j15444702396584_1_alg».proof.Defs
import proofs.«145879_j15444702396584_1_alg».proof.Proof.Gen.Pre_finite_inputs
import proofs.«145879_j15444702396584_1_alg».proof.Proof.LibFiniteAll

noncomputable section

namespace Cert.Finite

open Idealize.ShloMosaic Idealize.SL.Sem Idealize.ShloMosaic.FiniteAll

/-- If the precondition's function of six arrays is true, every entry of each array is a real number. -/
theorem reals_of_fn [Cert.Pre_finite_inputs.Facts]
    (a0 : FVec Ideal Cert.Pre_finite_inputs.S8192x128 .f32) (a1 a2 a3 : FVec Ideal Cert.Pre_finite_inputs.S128x128 .f32)
    (a4 : FVec Ideal Cert.Pre_finite_inputs.S1x128 .f32) (a5 : FVec Ideal Cert.Pre_finite_inputs.S1 .f32)
    (h : Cert.Pre_finite_inputs.fn (F := Ideal) a0 a1 a2 a3 a4 a5 = fun _ => 1#1) :
    (∀ i, ∃ x : ℝ, a0 i = (x : EReal))
      ∧ (∀ i, ∃ x : ℝ, a1 i = (x : EReal))
      ∧ (∀ i, ∃ x : ℝ, a2 i = (x : EReal))
      ∧ (∀ i, ∃ x : ℝ, a3 i = (x : EReal))
      ∧ (∀ i, ∃ x : ℝ, a4 i = (x : EReal))
      ∧ (∀ i, ∃ x : ℝ, a5 i = (x : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5⟩

/-- Under the kernel's precondition every entry of each of its six argument arrays is a real number. -/
theorem reals_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, (m ((c.tc : Thread Cert.KernelIdeal.nD Cert.KernelIdeal.τ).loc Cert.KernelIdeal.main_arg0)) i = (x : EReal))
      ∧ (∀ i, ∃ x : ℝ, (m ((c.tc : Thread Cert.KernelIdeal.nD Cert.KernelIdeal.τ).loc Cert.KernelIdeal.main_arg1)) i = (x : EReal))
      ∧ (∀ i, ∃ x : ℝ, (m ((c.tc : Thread Cert.KernelIdeal.nD Cert.KernelIdeal.τ).loc Cert.KernelIdeal.main_arg2)) i = (x : EReal))
      ∧ (∀ i, ∃ x : ℝ, (m ((c.tc : Thread Cert.KernelIdeal.nD Cert.KernelIdeal.τ).loc Cert.KernelIdeal.main_arg3)) i = (x : EReal))
      ∧ (∀ i, ∃ x : ℝ, (m ((c.tc : Thread Cert.KernelIdeal.nD Cert.KernelIdeal.τ).loc Cert.KernelIdeal.main_arg4)) i = (x : EReal))
      ∧ (∀ i, ∃ x : ℝ, (m ((c.tc : Thread Cert.KernelIdeal.nD Cert.KernelIdeal.τ).loc Cert.KernelIdeal.main_arg5)) i = (x : EReal)) :=
  reals_of_fn _ _ _ _ _ _ (h c)

end Cert.Finite

end
-- ==== Proof.lean ====
/-
  The certificate of the linear-attention head: a kernel that computes Q·(KᵀV) in two regions — KᵀV accumulated over
  eight tiles of rows, then the head applied to Q times it — against the reference (Q·Kᵀ)·V.

  * The two kernel programs run to the end with their argument arrays unchanged: each region's body is run at every grid
    point against the pipeline's staging, the accumulator carried from point to point inside region 0, and the two
    regions are composed in order (`Hand.frame`, at the word level and at the extended reals).
  * The reference's run is read back operation by operation to the quadratic arrangement `Spec.refOut`.
  * The idealized kernel's result is the linear arrangement `Spec.kernelOut` of the same arrays.
  * On finite inputs every entry is a real number, and the two arrangements agree by associativity and distributivity
    of finite sums of reals (`Spec.kernelOut_eq_refOut`).
  The idealization rewrote nothing, so that conjunct is trivial.
-/
import proofs.«145879_j15444702396584_1_alg».proof.Defs
import proofs.«145879_j15444702396584_1_alg».proof.Proof.Gen.Kernel
import proofs.«145879_j15444702396584_1_alg».proof.Proof.Gen.KernelIdeal
import proofs.«145879_j15444702396584_1_alg».proof.Proof.Gen.ReferenceIdeal
import proofs.«145879_j15444702396584_1_alg».proof.Proof.Gen.Pre_finite_inputs
import proofs.«145879_j15444702396584_1_alg».proof.Proof.K.Run
import proofs.«145879_j15444702396584_1_alg».proof.Proof.KI.Value
import proofs.«145879_j15444702396584_1_alg».proof.Proof.RefValue
import proofs.«145879_j15444702396584_1_alg».proof.Proof.Algebra
import proofs.«145879_j15444702396584_1_alg».proof.Proof.Finite

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- From memories agreeing on the arguments, the idealized kernel ends at the linear arrangement of its arguments and the
    reference at the quadratic arrangement of its own; the arguments are finite, so the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩) (Cert.RefValue.ref_run m' ρ')
  obtain ⟨h0, h1, h2, h3, h4, h5⟩ := Cert.Finite.reals_of_pre m hpre c
  rw [(hagree c).1, (hagree c).2.1, (hagree c).2.2.1, (hagree c).2.2.2.1, (hagree c).2.2.2.2.1, (hagree c).2.2.2.2.2]
  exact (Cert.Spec.kernelOut_eq_refOut _ _ _ _ _ _ h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, Cert.RefValue.ref_frame, trivial, algebraic⟩

end Cert.Proof

end
